-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S400000 : Shape := ⟨1, ![400000]⟩
abbrev S80000 : Shape := ⟨1, ![80000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg8 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S100000x512 .f32) (main_arg1 : IVec S400000 32) (main_arg2 : IVec S400000 32) (main_arg3 : IVec S80000 32) (main_arg4 : IVec S80000 32) (main_arg5 : FVec F S512x512 .f32) (main_arg6 : FVec F S512 .f32) (main_arg7 : FVec F S512x256 .f32) (main_arg8 : FVec F S256 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg5
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg6
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg7
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg8 main_v13 main_v16
-- ==== Kernel.lean ====
abbrev S100000x512 : Shape := ⟨2, ![100000, 512]⟩
abbrev S400000 : Shape := ⟨1, ![400000]⟩
abbrev S80000 : Shape := ⟨1, ![80000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S25000x512 : Shape := ⟨2, ![25000, 512]⟩
abbrev S_ : Shape := ⟨0, ![]⟩
abbrev S400000x1 : Shape := ⟨2, ![400000, 1]⟩
abbrev S400000x512 : Shape := ⟨2, ![400000, 512]⟩
abbrev S25000 : Shape := ⟨1, ![25000]⟩
abbrev S25000x1 : Shape := ⟨2, ![25000, 1]⟩
abbrev S1x512 : Shape := ⟨2, ![1, 512]⟩
abbrev S1000x512 : Shape := ⟨2, ![1000, 512]⟩
abbrev S5000x512 : Shape := ⟨2, ![5000, 512]⟩
abbrev S80000x1 : Shape := ⟨2, ![80000, 1]⟩
abbrev S80000x512 : Shape := ⟨2, ![80000, 512]⟩
abbrev S5000 : Shape := ⟨1, ![5000]⟩
abbrev S5000x1 : Shape := ⟨2, ![5000, 1]⟩
abbrev S1x256 : Shape := ⟨2, ![1, 256]⟩
abbrev S5000x256 : Shape := ⟨2, ![5000, 256]⟩
abbrev S1000x256 : Shape := ⟨2, ![1000, 256]⟩

abbrev nBuf : Space → Nat
  | .hbm => 67
  | .vmem => 12
  | .smem => 0
  | _ => 0

abbrev bufTy : (tb : Table) → Fin (tcTables nBuf tb) → BufTy
  | .hbm, ⟨0, _⟩ => ⟨S100000x512, .f32⟩
  | .hbm, ⟨1, _⟩ => ⟨S400000, .i32⟩
  | .hbm, ⟨2, _⟩ => ⟨S400000, .i32⟩
  | .hbm, ⟨3, _⟩ => ⟨S80000, .i32⟩
  | .hbm, ⟨4, _⟩ => ⟨S80000, .i32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S25000x512, .f32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x512, .f32⟩
  | .hbm, ⟨19, _⟩ => ⟨S_, .f32⟩
  | .hbm, ⟨20, _⟩ => ⟨S25000x512, .f32⟩
  | .hbm, ⟨21, _⟩ => ⟨S400000x1, .i32⟩
  | .hbm, ⟨22, _⟩ => ⟨S25000x512, .f32⟩
  | .hbm, ⟨23, _⟩ => ⟨S_, .f32⟩
  | .hbm, ⟨24, _⟩ => ⟨S400000, .f32⟩
  | .hbm, ⟨25, _⟩ => ⟨S_, .f32⟩
  | .hbm, ⟨26, _⟩ => ⟨S25000, .f32⟩
  | .hbm, ⟨27, _⟩ => ⟨S400000x1, .i32⟩
  | .hbm, ⟨28, _⟩ => ⟨S25000, .f32⟩
  | .hbm, ⟨29, _⟩ => ⟨S25000x512, .f32⟩
  | .hbm, ⟨30, _⟩ => ⟨S25000x1, .f32⟩
  | .hbm, ⟨31, _⟩ => ⟨S_, .f32⟩
  | .hbm, ⟨32, _⟩ => ⟨S25000x1, .f32⟩
  | .hbm, ⟨33, _⟩ => ⟨S25000x1, .f32⟩
  | .hbm, ⟨34, _⟩ => ⟨S25000x512, .f32⟩
  | .hbm, ⟨35, _⟩ => ⟨S25000x512, .f32⟩
  | .hbm, ⟨36, _⟩ => ⟨S1x512, .f32⟩
  | .hbm, ⟨37, _⟩ => ⟨S25000x512, .f32⟩
  | .hbm, ⟨38, _⟩ => ⟨S5000x512, .f32⟩
  | .hbm, ⟨39, _⟩ => ⟨S_, .i32⟩
  | .hbm, ⟨40, _⟩ => ⟨S80000, .i32⟩
  | .hbm, ⟨41, _⟩ => ⟨S80000, .i1⟩
  | .hbm, ⟨42, _⟩ => ⟨S_, .i32⟩
  | .hbm, ⟨43, _⟩ => ⟨S80000, .i32⟩
  | .hbm, ⟨44, _⟩ => ⟨S80000, .i32⟩
  | .hbm, ⟨45, _⟩ => ⟨S80000, .i32⟩
  | .hbm, ⟨46, _⟩ => ⟨S80000x1, .i32⟩
  | .hbm, ⟨47, _⟩ => ⟨S80000x512, .f32⟩
  | .hbm, ⟨48, _⟩ => ⟨S_, .f32⟩
  | .hbm, ⟨49, _⟩ => ⟨S5000x512, .f32⟩
  | .hbm, ⟨50, _⟩ => ⟨S80000x1, .i32⟩
  | .hbm, ⟨51, _⟩ => ⟨S5000x512, .f32⟩
  | .hbm, ⟨52, _⟩ => ⟨S_, .f32⟩
  | .hbm, ⟨53, _⟩ => ⟨S80000, .f32⟩
  | .hbm, ⟨54, _⟩ => ⟨S_, .f32⟩
  | .hbm, ⟨55, _⟩ => ⟨S5000, .f32⟩
  | .hbm, ⟨56, _⟩ => ⟨S80000x1, .i32⟩
  | .hbm, ⟨57, _⟩ => ⟨S5000, .f32⟩
  | .hbm, ⟨58, _⟩ => ⟨S5000x512, .f32⟩
  | .hbm, ⟨59, _⟩ => ⟨S5000x1, .f32⟩
  | .hbm, ⟨60, _⟩ => ⟨S_, .f32⟩
  | .hbm, ⟨61, _⟩ => ⟨S5000x1, .f32⟩
  | .hbm, ⟨62, _⟩ => ⟨S5000x1, .f32⟩
  | .hbm, ⟨63, _⟩ => ⟨S5000x512, .f32⟩
  | .hbm, ⟨64, _⟩ => ⟨S5000x512, .f32⟩
  | .hbm, ⟨65, _⟩ => ⟨S1x256, .f32⟩
  | .hbm, ⟨66, _⟩ => ⟨S5000x256, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S512x256, .f32⟩
  | .local _ .vmem, ⟨9, _⟩ => ⟨S1x256, .f32⟩
  | .local _ .vmem, ⟨10, _⟩ => ⟨S1000x256, .f32⟩
  | .local _ .vmem, ⟨11, _⟩ => ⟨S1000x256, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S100000x512_S25000x512_0_0 : S100000x512.Slices ![0, 0] S25000x512
  bcast_S_S400000 : S_.BroadcastsInDim S400000 (![] : Fin 0 → Fin S400000.rank)
  bcast_S400000_S400000x1_0 : S400000.BroadcastsInDim S400000x1 (![0] : Fin 1 → Fin S400000x1.rank)
  bcast_S_S25000x512 : S_.BroadcastsInDim S25000x512 (![] : Fin 0 → Fin S25000x512.rank)
  bcast_S_S25000 : S_.BroadcastsInDim S25000 (![] : Fin 0 → Fin S25000.rank)
  bcast_S25000_S25000x1_0 : S25000.BroadcastsInDim S25000x1 (![0] : Fin 1 → Fin S25000x1.rank)
  bcast_S_S25000x1 : S_.BroadcastsInDim S25000x1 (![] : Fin 0 → Fin S25000x1.rank)
  bcast_S25000x1_S25000x512_0_1 : S25000x1.BroadcastsInDim S25000x512 (![0, 1] : Fin 2 → Fin S25000x512.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  slices_S25000x512_S5000x512_0_0 : S25000x512.Slices ![0, 0] S5000x512
  bcast_S_S80000 : S_.BroadcastsInDim S80000 (![] : Fin 0 → Fin S80000.rank)
  bcast_S80000_S80000x1_0 : S80000.BroadcastsInDim S80000x1 (![0] : Fin 1 → Fin S80000x1.rank)
  bcast_S_S5000x512 : S_.BroadcastsInDim S5000x512 (![] : Fin 0 → Fin S5000x512.rank)
  bcast_S_S5000 : S_.BroadcastsInDim S5000 (![] : Fin 0 → Fin S5000.rank)
  bcast_S5000_S5000x1_0 : S5000.BroadcastsInDim S5000x1 (![0] : Fin 1 → Fin S5000x1.rank)
  bcast_S_S5000x1 : S_.BroadcastsInDim S5000x1 (![] : Fin 0 → Fin S5000x1.rank)
  bcast_S5000x1_S5000x512_0_1 : S5000x1.BroadcastsInDim S5000x512 (![0, 1] : Fin 2 → Fin S5000x512.rank)
  shapeCasts_S256_S1x256 : S256.ShapeCasts S1x256
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  gather_S100000x512_S400000x1_S400000x512_1_0_n_n_0_1_1512_wf : GatherDims.WF S100000x512 S400000x1 S400000x512 [1] [0] [] [0] [] 1 ![1, 512]
  scatter_S25000x512_S400000x1_S400000x512_1_0_0_1_wf : ScatterDims.WF S25000x512 S400000x1 S400000x512 [1] [0] [0] 1
  scatter_S25000_S400000x1_S400000_n_0_0_1_wf : ScatterDims.WF S25000 S400000x1 S400000 [] [0] [0] 1
  dot_S1000x512_S512x512_S1000x512_1_0_0_1_n_n_wf : DotDims.WF S1000x512 S512x512 S1000x512 [1] [0] [0] [1] [] []
  gather_S25000x512_S80000x1_S80000x512_1_0_n_n_0_1_1512_wf : GatherDims.WF S25000x512 S80000x1 S80000x512 [1] [0] [] [0] [] 1 ![1, 512]
  scatter_S5000x512_S80000x1_S80000x512_1_0_0_1_wf : ScatterDims.WF S5000x512 S80000x1 S80000x512 [1] [0] [0] 1
  scatter_S5000_S80000x1_S80000_n_0_0_1_wf : ScatterDims.WF S5000 S80000x1 S80000 [] [0] [0] 1
  dot_S1000x512_S512x256_S1000x256_1_0_0_1_n_n_wf : DotDims.WF S1000x512 S512x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S25000x512.size a
  hwx0_0 : ∀ i : grid0.Coords, EltTy.bits .f32 = 32 ∨ (Rect.block (s := S25000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S25000x512.size a
  hwx0_3 : ∀ i : grid0.Coords, EltTy.bits .f32 = 32 ∨ (Rect.block (s := S25000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S5000x512.size a
  hwx1_0 : ∀ i : grid1.Coords, EltTy.bits .f32 = 32 ∨ (Rect.block (s := S5000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S5000x256.size a
  hwx1_3 : ∀ i : grid1.Coords, EltTy.bits .f32 = 32 ∨ (Rect.block (s := S5000x256) S1000x256.size (cc1_transform_3 i) (hinb1_3 i)).WholeWords (EltTy.packing .f32)

variable [Facts₀]

def gather_S100000x512_S400000x1_S400000x512_1_0_n_n_0_1_1512 : GatherDims S100000x512 S400000x1 S400000x512 where
  offsetDims := [1]
  collapsedSliceDims := [0]
  operandBatchingDims := []
  startIndicesBatchingDims := []
  startIndexMap := [0]
  indexVectorDim := 1
  sliceSizes := ![1, 512]
  wf := gather_S100000x512_S400000x1_S400000x512_1_0_n_n_0_1_1512_wf
def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S25000x512_S80000x1_S80000x512_1_0_n_n_0_1_1512 : GatherDims S25000x512 S80000x1 S80000x512 where
  offsetDims := [1]
  collapsedSliceDims := [0]
  operandBatchingDims := []
  startIndicesBatchingDims := []
  startIndexMap := [0]
  indexVectorDim := 1
  sliceSizes := ![1, 512]
  wf := gather_S25000x512_S80000x1_S80000x512_1_0_n_n_0_1_1512_wf
def scatter_S5000x512_S80000x1_S80000x512_1_0_0_1 : ScatterDims S5000x512 S80000x1 S80000x512 where
  updateWindowDims := [1]
  insertedWindowDims := [0]
  scatterDimsToOperandDims := [0]
  indexVectorDim := 1
  wf := scatter_S5000x512_S80000x1_S80000x512_1_0_0_1_wf
def scatter_S5000_S80000x1_S80000_n_0_0_1 : ScatterDims S5000 S80000x1 S80000 where
  updateWindowDims := []
  insertedWindowDims := [0]
  scatterDimsToOperandDims := [0]
  indexVectorDim := 1
  wf := scatter_S5000_S80000x1_S80000_n_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf

abbrev win0_0 : Pipeline.Window sig grid0 :=
  Pipeline.Window.ofSpec (Memref.whole main_v20) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S400000 : Shape := ⟨1, ![400000]⟩
abbrev S80000 : Shape := ⟨1, ![80000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S25000x512 : Shape := ⟨2, ![25000, 512]⟩
abbrev S_ : Shape := ⟨0, ![]⟩
abbrev S400000x1 : Shape := ⟨2, ![400000, 1]⟩
abbrev S400000x512 : Shape := ⟨2, ![400000, 512]⟩
abbrev S25000 : Shape := ⟨1, ![25000]⟩
abbrev S25000x1 : Shape := ⟨2, ![25000, 1]⟩
abbrev S1x512 : Shape := ⟨2, ![1, 512]⟩
abbrev S5000x512 : Shape := ⟨2, ![5000, 512]⟩
abbrev S80000x1 : Shape := ⟨2, ![80000, 1]⟩
abbrev S80000x512 : Shape := ⟨2, ![80000, 512]⟩
abbrev S5000 : Shape := ⟨1, ![5000]⟩
abbrev S5000x1 : Shape := ⟨2, ![5000, 1]⟩
abbrev S5000x256 : Shape := ⟨2, ![5000, 256]⟩
abbrev S1x256 : Shape := ⟨2, ![1, 256]⟩

abbrev nBuf : Space → Nat
  | .hbm => 74
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S400000, .i32⟩
  | .hbm, ⟨2, _⟩ => ⟨S400000, .i32⟩
  | .hbm, ⟨3, _⟩ => ⟨S80000, .i32⟩
  | .hbm, ⟨4, _⟩ => ⟨S80000, .i32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S25000x512, .f32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x512, .f32⟩
  | .hbm, ⟨19, _⟩ => ⟨S_, .f32⟩
  | .hbm, ⟨20, _⟩ => ⟨S25000x512, .f32⟩
  | .hbm, ⟨21, _⟩ => ⟨S400000x1, .i32⟩
  | .hbm, ⟨22, _⟩ => ⟨S25000x512, .f32⟩
  | .hbm, ⟨23, _⟩ => ⟨S_, .f32⟩
  | .hbm, ⟨24, _⟩ => ⟨S400000, .f32⟩
  | .hbm, ⟨25, _⟩ => ⟨S_, .f32⟩
  | .hbm, ⟨26, _⟩ => ⟨S25000, .f32⟩
  | .hbm, ⟨27, _⟩ => ⟨S400000x1, .i32⟩
  | .hbm, ⟨28, _⟩ => ⟨S25000, .f32⟩
  | .hbm, ⟨29, _⟩ => ⟨S25000x512, .f32⟩
  | .hbm, ⟨30, _⟩ => ⟨S25000x1, .f32⟩
  | .hbm, ⟨31, _⟩ => ⟨S_, .f32⟩
  | .hbm, ⟨32, _⟩ => ⟨S25000x1, .f32⟩
  | .hbm, ⟨33, _⟩ => ⟨S25000x1, .f32⟩
  | .hbm, ⟨34, _⟩ => ⟨S25000x512, .f32⟩
  | .hbm, ⟨35, _⟩ => ⟨S25000x512, .f32⟩
  | .hbm, ⟨36, _⟩ => ⟨S25000x512, .f32⟩
  | .hbm, ⟨37, _⟩ => ⟨S1x512, .f32⟩
  | .hbm, ⟨38, _⟩ => ⟨S25000x512, .f32⟩
  | .hbm, ⟨39, _⟩ => ⟨S25000x512, .f32⟩
  | .hbm, ⟨40, _⟩ => ⟨S_, .f32⟩
  | .hbm, ⟨41, _⟩ => ⟨S25000x512, .f32⟩
  | .hbm, ⟨42, _⟩ => ⟨S25000x512, .f32⟩
  | .hbm, ⟨43, _⟩ => ⟨S5000x512, .f32⟩
  | .hbm, ⟨44, _⟩ => ⟨S_, .i32⟩
  | .hbm, ⟨45, _⟩ => ⟨S80000, .i32⟩
  | .hbm, ⟨46, _⟩ => ⟨S80000, .i1⟩
  | .hbm, ⟨47, _⟩ => ⟨S_, .i32⟩
  | .hbm, ⟨48, _⟩ => ⟨S80000, .i32⟩
  | .hbm, ⟨49, _⟩ => ⟨S80000, .i32⟩
  | .hbm, ⟨50, _⟩ => ⟨S80000, .i32⟩
  | .hbm, ⟨51, _⟩ => ⟨S80000x1, .i32⟩
  | .hbm, ⟨52, _⟩ => ⟨S80000x512, .f32⟩
  | .hbm, ⟨53, _⟩ => ⟨S_, .f32⟩
  | .hbm, ⟨54, _⟩ => ⟨S5000x512, .f32⟩
  | .hbm, ⟨55, _⟩ => ⟨S80000x1, .i32⟩
  | .hbm, ⟨56, _⟩ => ⟨S5000x512, .f32⟩
  | .hbm, ⟨57, _⟩ => ⟨S_, .f32⟩
  | .hbm, ⟨58, _⟩ => ⟨S80000, .f32⟩
  | .hbm, ⟨59, _⟩ => ⟨S_, .f32⟩
  | .hbm, ⟨60, _⟩ => ⟨S5000, .f32⟩
  | .hbm, ⟨61, _⟩ => ⟨S80000x1, .i32⟩
  | .hbm, ⟨62, _⟩ => ⟨S5000, .f32⟩
  | .hbm, ⟨63, _⟩ => ⟨S5000x512, .f32⟩
  | .hbm, ⟨64, _⟩ => ⟨S5000x1, .f32⟩
  | .hbm, ⟨65, _⟩ => ⟨S_, .f32⟩
  | .hbm, ⟨66, _⟩ => ⟨S5000x1, .f32⟩
  | .hbm, ⟨67, _⟩ => ⟨S5000x1, .f32⟩
  | .hbm, ⟨68, _⟩ => ⟨S5000x512, .f32⟩
  | .hbm, ⟨69, _⟩ => ⟨S5000x512, .f32⟩
  | .hbm, ⟨70, _⟩ => ⟨S5000x256, .f32⟩
  | .hbm, ⟨71, _⟩ => ⟨S1x256, .f32⟩
  | .hbm, ⟨72, _⟩ => ⟨S5000x256, .f32⟩
  | .hbm, ⟨73, _⟩ => ⟨S5000x256, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  slices_S100000x512_S25000x512_0_0 : S100000x512.Slices ![0, 0] S25000x512
  bcast_S_S400000 : S_.BroadcastsInDim S400000 (![] : Fin 0 → Fin S400000.rank)
  bcast_S400000_S400000x1_0 : S400000.BroadcastsInDim S400000x1 (![0] : Fin 1 → Fin S400000x1.rank)
  bcast_S_S25000x512 : S_.BroadcastsInDim S25000x512 (![] : Fin 0 → Fin S25000x512.rank)
  bcast_S_S25000 : S_.BroadcastsInDim S25000 (![] : Fin 0 → Fin S25000.rank)
  bcast_S25000_S25000x1_0 : S25000.BroadcastsInDim S25000x1 (![0] : Fin 1 → Fin S25000x1.rank)
  bcast_S_S25000x1 : S_.BroadcastsInDim S25000x1 (![] : Fin 0 → Fin S25000x1.rank)
  bcast_S25000x1_S25000x512_0_1 : S25000x1.BroadcastsInDim S25000x512 (![0, 1] : Fin 2 → Fin S25000x512.rank)
  bcast_S512_S1x512_1 : S512.BroadcastsInDim S1x512 (![1] : Fin 1 → Fin S1x512.rank)
  bcast_S1x512_S25000x512_0_1 : S1x512.BroadcastsInDim S25000x512 (![0, 1] : Fin 2 → Fin S25000x512.rank)
  slices_S25000x512_S5000x512_0_0 : S25000x512.Slices ![0, 0] S5000x512
  bcast_S_S80000 : S_.BroadcastsInDim S80000 (![] : Fin 0 → Fin S80000.rank)
  bcast_S80000_S80000x1_0 : S80000.BroadcastsInDim S80000x1 (![0] : Fin 1 → Fin S80000x1.rank)
  bcast_S_S5000x512 : S_.BroadcastsInDim S5000x512 (![] : Fin 0 → Fin S5000x512.rank)
  bcast_S_S5000 : S_.BroadcastsInDim S5000 (![] : Fin 0 → Fin S5000.rank)
  bcast_S5000_S5000x1_0 : S5000.BroadcastsInDim S5000x1 (![0] : Fin 1 → Fin S5000x1.rank)
  bcast_S_S5000x1 : S_.BroadcastsInDim S5000x1 (![] : Fin 0 → Fin S5000x1.rank)
  bcast_S5000x1_S5000x512_0_1 : S5000x1.BroadcastsInDim S5000x512 (![0, 1] : Fin 2 → Fin S5000x512.rank)
  bcast_S256_S1x256_1 : S256.BroadcastsInDim S1x256 (![1] : Fin 1 → Fin S1x256.rank)
  bcast_S1x256_S5000x256_0_1 : S1x256.BroadcastsInDim S5000x256 (![0, 1] : Fin 2 → Fin S5000x256.rank)
  gather_S100000x512_S400000x1_S400000x512_1_0_n_n_0_1_1512_wf : GatherDims.WF S100000x512 S400000x1 S400000x512 [1] [0] [] [0] [] 1 ![1, 512]
  scatter_S25000x512_S400000x1_S400000x512_1_0_0_1_wf : ScatterDims.WF S25000x512 S400000x1 S400000x512 [1] [0] [0] 1
  scatter_S25000_S400000x1_S400000_n_0_0_1_wf : ScatterDims.WF S25000 S400000x1 S400000 [] [0] [0] 1
  dot_S25000x512_S512x512_S25000x512_1_0_0_1_n_n_wf : DotDims.WF S25000x512 S512x512 S25000x512 [1] [0] [0] [1] [] []
  gather_S25000x512_S80000x1_S80000x512_1_0_n_n_0_1_1512_wf : GatherDims.WF S25000x512 S80000x1 S80000x512 [1] [0] [] [0] [] 1 ![1, 512]
  scatter_S5000x512_S80000x1_S80000x512_1_0_0_1_wf : ScatterDims.WF S5000x512 S80000x1 S80000x512 [1] [0] [0] 1
  scatter_S5000_S80000x1_S80000_n_0_0_1_wf : ScatterDims.WF S5000 S80000x1 S80000 [] [0] [0] 1
  dot_S5000x512_S512x256_S5000x256_1_0_0_1_n_n_wf : DotDims.WF S5000x512 S512x256 S5000x256 [1] [0] [0] [1] [] []

variable [Facts₀]

def gather_S100000x512_S400000x1_S400000x512_1_0_n_n_0_1_1512 : GatherDims S100000x512 S400000x1 S400000x512 where
  offsetDims := [1]
  collapsedSliceDims := [0]
  operandBatchingDims := []
  startIndicesBatchingDims := []
  startIndexMap := [0]
  indexVectorDim := 1
  sliceSizes := ![1, 512]
  wf := gather_S100000x512_S400000x1_S400000x512_1_0_n_n_0_1_1512_wf
def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def dot_S25000x512_S512x512_S25000x512_1_0_0_1_n_n : DotDims S25000x512 S512x512 S25000x512 where
  lhsContracting := [1]
  rhsContracting := [0]
  lhsNonContracting := [0]
  rhsNonContracting := [1]
  lhsBatch := []
  rhsBatch := []
  wf := dot_S25000x512_S512x512_S25000x512_1_0_0_1_n_n_wf
def gather_S25000x512_S80000x1_S80000x512_1_0_n_n_0_1_1512 : GatherDims S25000x512 S80000x1 S80000x512 where
  offsetDims := [1]
  collapsedSliceDims := [0]
  operandBatchingDims := []
  startIndicesBatchingDims := []
  startIndexMap := [0]
  indexVectorDim := 1
  sliceSizes := ![1, 512]
  wf := gather_S25000x512_S80000x1_S80000x512_1_0_n_n_0_1_1512_wf
def scatter_S5000x512_S80000x1_S80000x512_1_0_0_1 : ScatterDims S5000x512 S80000x1 S80000x512 where
  updateWindowDims := [1]
  insertedWindowDims := [0]
  scatterDimsToOperandDims := [0]
  indexVectorDim := 1
  wf := scatter_S5000x512_S80000x1_S80000x512_1_0_0_1_wf
def scatter_S5000_S80000x1_S80000_n_0_0_1 : ScatterDims S5000 S80000x1 S80000 where
  updateWindowDims := []
  insertedWindowDims := [0]
  scatterDimsToOperandDims := [0]
  indexVectorDim := 1
  wf := scatter_S5000_S80000x1_S80000_n_0_0_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf

class Facts : Prop extends Facts₀ where

variable [Facts]
-- ==== Proof.KernelRun.lean ====
/-
  The kernel program's run, with its result named.

  The program is two host stretches and two pipelined regions.  Its generated frame already follows the buffer
  contents through these four segments: after the second region every unscoped buffer of a core holds the last
  boundary's contents `W4`.  The frame keeps of this only that the arguments end as launched; here the same
  final contents are also read at the result buffer, so that every terminating execution ends with the result
  array equal to `W4` at that buffer and the arguments unchanged.
-/
import proofs.«168798_j39814346834501_1_alg».proof.Proof.Gen.KernelIdeal.Frame

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer then holds the
    last segment boundary's contents at that buffer, and each argument what it held at launch. -/
theorem run_result : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Sage.Run

end
-- ==== Proof.KernelLayers.lean ====
/-
  The two kernel bodies' stored values, read at an index.

  Each grid step holds a block of 1000 rows of the averaged features, the whole weight matrix and the bias as a
  single row.  The body multiplies the block by the weights on the matrix unit, starting from a zero accumulator
  — so entry `(p, q)` of the product is the plain sum over the 512 shared coordinates of row entry times
  column entry; the narrowing of both factors to a shorter float format changes nothing at exact values —
  adds the bias row to every row, and (first layer only) takes the maximum with zero.
-/
import proofs.«168798_j39814346834501_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Ker

open Cert.KernelIdeal Cert.KernelIdeal.Gen Idealize.ShloMosaic Idealize.ShloMosaic.ValueIdx

/-- The first layer's block product: 1000×512 by 512×512. -/
abbrev D0 : DotDims S1000x512 S512x512 S1000x512 := dot_S1000x512_S512x512_S1000x512_1_0_0_1_n_n
/-- The second layer's block product: 1000×512 by 512×256. -/
abbrev D1 : DotDims S1000x512 S512x256 S1000x256 := dot_S1000x512_S512x256_S1000x256_1_0_0_1_n_n

theorem lhs0_row (i : S1000x512.Idx) (k : D0.contr.Idx) : (D0.lhsIdx i k 0).val = (i 0).val := by
  unfold DotDims.lhsIdx
  rw [dif_neg (show ¬(0 : Fin S1000x512.rank) ∈ D0.lhsBatch by decide), dif_pos (show (0 : Fin S1000x512.rank) ∈ D0.lhsNonContracting by decide)]
  rfl
theorem rhs0_col (i : S1000x512.Idx) (k : D0.contr.Idx) : (D0.rhsIdx i k 1).val = (i 1).val := by
  unfold DotDims.rhsIdx
  rw [dif_neg (show ¬(1 : Fin S512x512.rank) ∈ D0.rhsBatch by decide), dif_pos (show (1 : Fin S512x512.rank) ∈ D0.rhsNonContracting by decide)]
  rfl

/-- The first layer's product into a zero accumulator, at `(p, q)`: row `p` of the left factor against column `q` of
    the right one. -/
theorem dot0_apply (l : FVec Ideal S1000x512 .bf16) (r : FVec Ideal S512x512 .bf16) (p : Fin 1000) (q : Fin 512) :
    matmul D0 none l r (constant (F := Ideal) S1000x512 .f32 0x00000000#32) (ix2 p q) = ∑ k : Fin 512, l (ix2 p k) * r (ix2 k q) := by
  refine (Ideal.matmul_constant_zero_apply D0 none l r (ix2 p q)).trans ?_
  rw [← Equiv.sum_comp (contrEquiv1 D0 512 rfl rfl).symm]
  refine Finset.sum_congr rfl fun k _ => ?_
  have hk := contrEquiv1_symm_val D0 512 rfl rfl k
  have el : D0.lhsIdx (ix2 p q) ((contrEquiv1 D0 512 rfl rfl).symm k) = ix2 p k := funext fun a => Fin.ext (by
    match a with
    | ⟨0, _⟩ => exact lhs0_row _ _
    | ⟨1, _⟩ => exact (D0.lhsIdx_val_of_single rfl _ _).trans hk)
  have er : D0.rhsIdx (ix2 p q) ((contrEquiv1 D0 512 rfl rfl).symm k) = ix2 k q := funext fun a => Fin.ext (by
    match a with
    | ⟨0, _⟩ => exact (D0.rhsIdx_val_of_single rfl _ _).trans hk
    | ⟨1, _⟩ => exact rhs0_col _ _)
  rw [el, er]

theorem lhs1_row (i : S1000x256.Idx) (k : D1.contr.Idx) : (D1.lhsIdx i k 0).val = (i 0).val := by
  unfold DotDims.lhsIdx
  rw [dif_neg (show ¬(0 : Fin S1000x512.rank) ∈ D1.lhsBatch by decide), dif_pos (show (0 : Fin S1000x512.rank) ∈ D1.lhsNonContracting by decide)]
  rfl
theorem rhs1_col (i : S1000x256.Idx) (k : D1.contr.Idx) : (D1.rhsIdx i k 1).val = (i 1).val := by
  unfold DotDims.rhsIdx
  rw [dif_neg (show ¬(1 : Fin S512x256.rank) ∈ D1.rhsBatch by decide), dif_pos (show (1 : Fin S512x256.rank) ∈ D1.rhsNonContracting by decide)]
  rfl

/-- The second layer's product into a zero accumulator, at `(p, q)`. -/
theorem dot1_apply (l : FVec Ideal S1000x512 .bf16) (r : FVec Ideal S512x256 .bf16) (p : Fin 1000) (q : Fin 256) :
    matmul D1 none l r (constant (F := Ideal) S1000x256 .f32 0x00000000#32) (ix2 p q) = ∑ k : Fin 512, l (ix2 p k) * r (ix2 k q) := by
  refine (Ideal.matmul_constant_zero_apply D1 none l r (ix2 p q)).trans ?_
  rw [← Equiv.sum_comp (contrEquiv1 D1 512 rfl rfl).symm]
  refine Finset.sum_congr rfl fun k _ => ?_
  have hk := contrEquiv1_symm_val D1 512 rfl rfl k
  have el : D1.lhsIdx (ix2 p q) ((contrEquiv1 D1 512 rfl rfl).symm k) = ix2 p k := funext fun a => Fin.ext (by
    match a with
    | ⟨0, _⟩ => exact lhs1_row _ _
    | ⟨1, _⟩ => exact (D1.lhsIdx_val_of_single rfl _ _).trans hk)
  have er : D1.rhsIdx (ix2 p q) ((contrEquiv1 D1 512 rfl rfl).symm k) = ix2 k q := funext fun a => Fin.ext (by
    match a with
    | ⟨0, _⟩ => exact (D1.rhsIdx_val_of_single rfl _ _).trans hk
    | ⟨1, _⟩ => exact rhs1_col _ _)
  rw [el, er]

/-- What the first body stores, at `(p, q)` of its block: `max (Σₖ x(p,k)·W(k,q) + b(0,q)) 0`. -/
theorem pay0_apply (v0 : Vec Ideal S1000x512 .f32) (v3 : Vec Ideal S512x512 .f32) (v6 : Vec Ideal S1x512 .f32)
    (p : Fin 1000) (q : Fin 512) :
    k0_pay1 v0 v3 v6 (ix2 p q) = max ((∑ k : Fin 512, v0 (ix2 p k) * v3 (ix2 k q)) + v6 (ix2 (0 : Fin 1) q)) 0 := by
  unfold k0_pay1
  show max (matmul D0 none (truncf .bf16 (shapeCast S1000x512 v0 shapeCasts_S1000x512_S1000x512) bitsLt_bf16_f32)
      (truncf .bf16 v3 bitsLt_bf16_f32) (constant (F := Ideal) S1000x512 .f32 0x00000000#32) (ix2 p q)
      + broadcastTo S1000x512 (shapeCast S1x512 v6 shapeCasts_S1x512_S1x512) broadcasts_S1x512_S1000x512 (ix2 p q))
    (Ideal.ofBits .f32 0x00000000#32) = _
  rw [dot0_apply, broadcastTo_1b_ab_apply, shapeCast_self, shapeCast_self, Ideal.ofBits_zero_f32]
  rfl

/-- What the second body stores, at `(p, q)` of its block: `Σₖ x(p,k)·W(k,q) + b(0,q)`. -/
theorem pay1_apply (v0 : Vec Ideal S1000x512 .f32) (v3 : Vec Ideal S512x256 .f32) (v6 : Vec Ideal S1x256 .f32)
    (p : Fin 1000) (q : Fin 256) :
    k1_pay1 v0 v3 v6 (ix2 p q) = (∑ k : Fin 512, v0 (ix2 p k) * v3 (ix2 k q)) + v6 (ix2 (0 : Fin 1) q) := by
  unfold k1_pay1
  show matmul D1 none (truncf .bf16 (shapeCast S1000x512 v0 shapeCasts_S1000x512_S1000x512) bitsLt_bf16_f32)
      (truncf .bf16 v3 bitsLt_bf16_f32) (constant (F := Ideal) S1000x256 .f32 0x00000000#32) (ix2 p q)
      + broadcastTo S1000x256 (shapeCast S1x256 v6 shapeCasts_S1x256_S1x256) broadcasts_S1x256_S1000x256 (ix2 p q) = _
  rw [dot1_apply, broadcastTo_1b_ab_apply, shapeCast_self, shapeCast_self]
  rfl

end Cert.Sage.Ker

end
-- ==== Proof.RegionValues.lean ====
/-
  Each region's output array after its last grid step, as one function of the arrays the region is entered with.

  A region walks the rows in blocks of 1000: step `t` reads rows `1000·t … 1000·t + 999` of the averaged features,
  the whole weight matrix and the bias row, and writes the same rows of the output.  Every output row lies in
  exactly one step's block (the step `row / 1000`), so the output array ends as the dense layer of the whole
  input arrays, entry by entry:  `Σₖ x(i,k)·W(k,j) + b(0,j)`, with the maximum with zero in the first region.
  The entry contents `V` are a parameter: the statements hold whatever the host stretch before the region computed.
-/
import proofs.«168798_j39814346834501_1_alg».proof.Proof.Gen.KernelIdeal.Frame
import proofs.«168798_j39814346834501_1_alg».proof.Proof.KernelLayers

set_option maxRecDepth 16384

noncomputable section

namespace Cert.Sage.Region

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## First region: 25000 rows, 512 columns, rectified -/

/-- The first dense layer on whole arrays: `max (Σₖ X(i,k)·W(k,j) + B(0,j)) 0` at `(i, j)`. -/
def dense0 (X : Vec Ideal S25000x512 .f32) (W : Vec Ideal S512x512 .f32) (B : Vec Ideal S1x512 .f32) : Vec Ideal S25000x512 .f32 :=
  fun i => max ((∑ k : Fin 512, X (ix2 (n0 := 25000) ⟨(i 0).val, idx2_lt0 i⟩ k) * W (ix2 k (n1 := 512) ⟨(i 1).val, idx2_lt1 i⟩))
    + B (ix2 (0 : Fin 1) (n1 := 512) ⟨(i 1).val, idx2_lt1 i⟩)) 0

/-- The index maps over the grid: the input and output row blocks move together with the step; the weights and
    the bias stay at their one block. -/
theorem idx_facts0 : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (1 : Fin 2) = 0
    ∧ win0_3.index t (0 : Fin 2) = t.val :=
  (by decide +kernel : ∀ t : Fin grid0.N, _)

/-- One entry of one block: if the three staged blocks are the reads of the arrays at row `i 0` and column `i 1`,
    the stored entry is the dense layer's entry `i`. -/
theorem dense0_block (X : Vec Ideal S25000x512 .f32) (W : Vec Ideal S512x512 .f32) (B : Vec Ideal S1x512 .f32)
    (x0 : Vec Ideal S1000x512 .f32) (x1 : Vec Ideal S512x512 .f32) (x2 : Vec Ideal S1x512 .f32)
    (i : S25000x512.Idx) (p : Fin 1000) (q : Fin 512)
    (h0 : ∀ k : Fin 512, x0 (ix2 p k) = X (ix2 (n0 := 25000) ⟨(i 0).val, idx2_lt0 i⟩ k))
    (h1 : ∀ k : Fin 512, x1 (ix2 k q) = W (ix2 k (n1 := 512) ⟨(i 1).val, idx2_lt1 i⟩))
    (h2 : x2 (ix2 (0 : Fin 1) q) = B (ix2 (0 : Fin 1) (n1 := 512) ⟨(i 1).val, idx2_lt1 i⟩)) :
    k0_pay1 x0 x1 x2 (ix2 p q) = dense0 X W B i := by
  rw [Ker.pay0_apply]
  unfold dense0
  simp only [h0, h1, h2]

/-- What step `t` writes back is block `t` of the dense layer of the entry arrays. -/
theorem flushed0 (c : Dev nD) (t : Fin cfg0.N) :
    (dat0 V c).flushed 3 t = ((cfg0.win 3).blk t).view.read (Elt Ideal) (dense0 (V c main_v20) (V c main_arg5) (V c main_v21)) := by
  show (cfg0.win 3).cut (grid0.coords t) ((dat0 V c).after 3 t) = _
  rw [after0_3]
  unfold out0_3
  rw [View.canon_unit_zero hz]
  simp only [View.ld_unit_zero (S := S1000x512) hz, View.ld_unit_zero (S := S512x512) hz, View.ld_unit_zero (S := S1x512) hz]
  funext j
  show k0_pay1 (iblk0 V c 0 t) (iblk0 V c 1 t) (iblk0 V c 2 t) j
    = dense0 (V c main_v20) (V c main_arg5) (V c main_v21) (((cfg0.win 3).blk t).view.emb j)
  obtain ⟨p, q, rfl⟩ : ∃ (p : Fin 1000) (q : Fin 512), j = ix2 p q :=
    ⟨⟨(j 0).val, (j 0).isLt⟩, ⟨(j 1).val, (j 1).isLt⟩, funext fun a => by match a with | ⟨0, _⟩ => rfl | ⟨1, _⟩ => rfl⟩
  obtain ⟨e0, e1, e2, e3, e4, e5, e6, e7⟩ := idx_facts0 t
  refine dense0_block (V c main_v20) (V c main_arg5) (V c main_v21) (iblk0 V c 0 t) (iblk0 V c 1 t) (iblk0 V c 2 t)
    (((cfg0.win 3).blk t).view.emb (ix2 p q)) p q (fun k => ?_) (fun k => ?_) ?_
  · show V c main_v20 (((cfg0.win 0).blk t).view.emb (ix2 p k)) = V c main_v20 _
    refine congrArg (V c main_v20) (funext fun a => Fin.ext ?_)
    match a with
    | ⟨0, _⟩ => show win0_0.index t (0 : Fin 2) * 1000 + 1 * p.val = win0_3.index t (0 : Fin 2) * 1000 + 1 * p.val; omega
    | ⟨1, _⟩ => show win0_0.index t (1 : Fin 2) * 512 + 1 * k.val = k.val; omega
  · show V c main_arg5 (((cfg0.win 1).blk t).view.emb (ix2 k q)) = V c main_arg5 _
    refine congrArg (V c main_arg5) (funext fun a => Fin.ext ?_)
    match a with
    | ⟨0, _⟩ => show win0_1.index t (0 : Fin 2) * 512 + 1 * k.val = k.val; omega
    | ⟨1, _⟩ => show win0_1.index t (1 : Fin 2) * 512 + 1 * q.val = win0_3.index t (1 : Fin 2) * 512 + 1 * q.val; omega
  · show V c main_v21 (((cfg0.win 2).blk t).view.emb (ix2 (0 : Fin 1) q)) = V c main_v21 _
    refine congrArg (V c main_v21) (funext fun a => Fin.ext ?_)
    match a with
    | ⟨0, _⟩ => show win0_2.index t (0 : Fin 2) * 1 + 1 * 0 = 0; omega
    | ⟨1, _⟩ => show win0_2.index t (1 : Fin 2) * 512 + 1 * q.val = win0_3.index t (1 : Fin 2) * 512 + 1 * q.val; omega

/-- An index is in step `t`'s output block iff each coordinate is in the block's range. -/
theorem mem_blk0 (t : Fin cfg0.N) (i : S25000x512.Idx) :
    i ∈ ((cfg0.win 3).blk t).view.set ↔ ∀ a : Fin 2, win0_3.index t a * S1000x512.size a ≤ (i a).val ∧ (i a).val < win0_3.index t a * S1000x512.size a + S1000x512.size a := by
  show i ∈ ((View.whole main_v22).slice (win0_3.rect t)).set ↔ _
  rw [View.set_slice_whole, Rect.mem_set_unit]
  exact Iff.rfl

/-- Every output row is written by the step `row / 1000`. -/
theorem cover0 (i : S25000x512.Idx) : ∃ t : Fin cfg0.N, (cfg0.win 3).flush t = true ∧ i ∈ ((cfg0.win 3).blk t).view.set := by
  have hi0 : (i 0).val < 25000 := (i 0).isLt
  have hi1 : (i 1).val < 512 := (i 1).isLt
  have hN : (i 0).val / 1000 < cfg0.N := by show (i 0).val / 1000 < grid0.N; rw [N_0]; omega
  obtain ⟨e0, e1, e2, e3, e4, e5, e6, e7⟩ := idx_facts0 ⟨(i 0).val / 1000, hN⟩
  have e7' : win0_3.index ⟨(i 0).val / 1000, hN⟩ (0 : Fin 2) = (i 0).val / 1000 := e7
  refine ⟨⟨(i 0).val / 1000, hN⟩, flush0_3 _, ?_⟩
  rw [mem_blk0]
  intro a
  match a with
  | ⟨0, _⟩ =>
    show win0_3.index ⟨(i 0).val / 1000, hN⟩ (0 : Fin 2) * 1000 ≤ (i 0).val ∧ (i 0).val < win0_3.index ⟨(i 0).val / 1000, hN⟩ (0 : Fin 2) * 1000 + 1000
    omega
  | ⟨1, _⟩ =>
    show win0_3.index ⟨(i 0).val / 1000, hN⟩ (1 : Fin 2) * 512 ≤ (i 1).val ∧ (i 1).val < win0_3.index ⟨(i 0).val / 1000, hN⟩ (1 : Fin 2) * 512 + 512
    omega

/-- The first region's output array after the region: the dense layer of the arrays it was entered with. -/
theorem final0 (c : Dev nD) :
    (dat0 V c).arrAt 3 cfg0.N = dense0 (V c main_v20) (V c main_arg5) (V c main_v21) :=
  (dat0 V c).arrAt_eq_of_cover 3 (dense0 (V c main_v20) (V c main_arg5) (V c main_v21)) (fun t _ => flushed0 V c t) cover0

/-! ## Second region: 5000 rows, 256 columns -/

/-- The second dense layer on whole arrays: `Σₖ X(i,k)·W(k,j) + B(0,j)` at `(i, j)`. -/
def dense1 (X : Vec Ideal S5000x512 .f32) (W : Vec Ideal S512x256 .f32) (B : Vec Ideal S1x256 .f32) : Vec Ideal S5000x256 .f32 :=
  fun i => (∑ k : Fin 512, X (ix2 (n0 := 5000) ⟨(i 0).val, idx2_lt0 i⟩ k) * W (ix2 k (n1 := 256) ⟨(i 1).val, idx2_lt1 i⟩))
    + B (ix2 (0 : Fin 1) (n1 := 256) ⟨(i 1).val, idx2_lt1 i⟩)

theorem idx_facts1 : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0 ∧ win1_3.index t (1 : Fin 2) = 0
    ∧ win1_3.index t (0 : Fin 2) = t.val :=
  (by decide +kernel : ∀ t : Fin grid1.N, _)

/-- One entry of one block of the second region. -/
theorem dense1_block (X : Vec Ideal S5000x512 .f32) (W : Vec Ideal S512x256 .f32) (B : Vec Ideal S1x256 .f32)
    (x0 : Vec Ideal S1000x512 .f32) (x1 : Vec Ideal S512x256 .f32) (x2 : Vec Ideal S1x256 .f32)
    (i : S5000x256.Idx) (p : Fin 1000) (q : Fin 256)
    (h0 : ∀ k : Fin 512, x0 (ix2 p k) = X (ix2 (n0 := 5000) ⟨(i 0).val, idx2_lt0 i⟩ k))
    (h1 : ∀ k : Fin 512, x1 (ix2 k q) = W (ix2 k (n1 := 256) ⟨(i 1).val, idx2_lt1 i⟩))
    (h2 : x2 (ix2 (0 : Fin 1) q) = B (ix2 (0 : Fin 1) (n1 := 256) ⟨(i 1).val, idx2_lt1 i⟩)) :
    k1_pay1 x0 x1 x2 (ix2 p q) = dense1 X W B i := by
  rw [Ker.pay1_apply]
  unfold dense1
  simp only [h0, h1, h2]

theorem flushed1 (c : Dev nD) (t : Fin cfg1.N) :
    (dat1 V c).flushed 3 t = ((cfg1.win 3).blk t).view.read (Elt Ideal) (dense1 (V c main_v43) (V c main_arg7) (V c main_v44)) := by
  show (cfg1.win 3).cut (grid1.coords t) ((dat1 V c).after 3 t) = _
  rw [after1_3]
  unfold out1_3
  rw [View.canon_unit_zero hz]
  simp only [View.ld_unit_zero (S := S1000x512) hz, View.ld_unit_zero (S := S512x256) hz, View.ld_unit_zero (S := S1x256) hz]
  funext j
  show k1_pay1 (iblk1 V c 0 t) (iblk1 V c 1 t) (iblk1 V c 2 t) j
    = dense1 (V c main_v43) (V c main_arg7) (V c main_v44) (((cfg1.win 3).blk t).view.emb j)
  obtain ⟨p, q, rfl⟩ : ∃ (p : Fin 1000) (q : Fin 256), j = ix2 p q :=
    ⟨⟨(j 0).val, (j 0).isLt⟩, ⟨(j 1).val, (j 1).isLt⟩, funext fun a => by match a with | ⟨0, _⟩ => rfl | ⟨1, _⟩ => rfl⟩
  obtain ⟨e0, e1, e2, e3, e4, e5, e6, e7⟩ := idx_facts1 t
  refine dense1_block (V c main_v43) (V c main_arg7) (V c main_v44) (iblk1 V c 0 t) (iblk1 V c 1 t) (iblk1 V c 2 t)
    (((cfg1.win 3).blk t).view.emb (ix2 p q)) p q (fun k => ?_) (fun k => ?_) ?_
  · show V c main_v43 (((cfg1.win 0).blk t).view.emb (ix2 p k)) = V c main_v43 _
    refine congrArg (V c main_v43) (funext fun a => Fin.ext ?_)
    match a with
    | ⟨0, _⟩ => show win1_0.index t (0 : Fin 2) * 1000 + 1 * p.val = win1_3.index t (0 : Fin 2) * 1000 + 1 * p.val; omega
    | ⟨1, _⟩ => show win1_0.index t (1 : Fin 2) * 512 + 1 * k.val = k.val; omega
  · show V c main_arg7 (((cfg1.win 1).blk t).view.emb (ix2 k q)) = V c main_arg7 _
    refine congrArg (V c main_arg7) (funext fun a => Fin.ext ?_)
    match a with
    | ⟨0, _⟩ => show win1_1.index t (0 : Fin 2) * 512 + 1 * k.val = k.val; omega
    | ⟨1, _⟩ => show win1_1.index t (1 : Fin 2) * 256 + 1 * q.val = win1_3.index t (1 : Fin 2) * 256 + 1 * q.val; omega
  · show V c main_v44 (((cfg1.win 2).blk t).view.emb (ix2 (0 : Fin 1) q)) = V c main_v44 _
    refine congrArg (V c main_v44) (funext fun a => Fin.ext ?_)
    match a with
    | ⟨0, _⟩ => show win1_2.index t (0 : Fin 2) * 1 + 1 * 0 = 0; omega
    | ⟨1, _⟩ => show win1_2.index t (1 : Fin 2) * 256 + 1 * q.val = win1_3.index t (1 : Fin 2) * 256 + 1 * q.val; omega

theorem mem_blk1 (t : Fin cfg1.N) (i : S5000x256.Idx) :
    i ∈ ((cfg1.win 3).blk t).view.set ↔ ∀ a : Fin 2, win1_3.index t a * S1000x256.size a ≤ (i a).val ∧ (i a).val < win1_3.index t a * S1000x256.size a + S1000x256.size a := by
  show i ∈ ((View.whole main_v45).slice (win1_3.rect t)).set ↔ _
  rw [View.set_slice_whole, Rect.mem_set_unit]
  exact Iff.rfl

theorem cover1 (i : S5000x256.Idx) : ∃ t : Fin cfg1.N, (cfg1.win 3).flush t = true ∧ i ∈ ((cfg1.win 3).blk t).view.set := by
  have hi0 : (i 0).val < 5000 := (i 0).isLt
  have hi1 : (i 1).val < 256 := (i 1).isLt
  have hN : (i 0).val / 1000 < cfg1.N := by show (i 0).val / 1000 < grid1.N; rw [N_1]; omega
  obtain ⟨e0, e1, e2, e3, e4, e5, e6, e7⟩ := idx_facts1 ⟨(i 0).val / 1000, hN⟩
  have e7' : win1_3.index ⟨(i 0).val / 1000, hN⟩ (0 : Fin 2) = (i 0).val / 1000 := e7
  refine ⟨⟨(i 0).val / 1000, hN⟩, flush1_3 _, ?_⟩
  rw [mem_blk1]
  intro a
  match a with
  | ⟨0, _⟩ =>
    show win1_3.index ⟨(i 0).val / 1000, hN⟩ (0 : Fin 2) * 1000 ≤ (i 0).val ∧ (i 0).val < win1_3.index ⟨(i 0).val / 1000, hN⟩ (0 : Fin 2) * 1000 + 1000
    omega
  | ⟨1, _⟩ =>
    show win1_3.index ⟨(i 0).val / 1000, hN⟩ (1 : Fin 2) * 256 ≤ (i 1).val ∧ (i 1).val < win1_3.index ⟨(i 0).val / 1000, hN⟩ (1 : Fin 2) * 256 + 256
    omega

/-- The second region's output array after the region: the dense layer of the arrays it was entered with. -/
theorem final1 (c : Dev nD) :
    (dat1 V c).arrAt 3 cfg1.N = dense1 (V c main_v43) (V c main_arg7) (V c main_v44) :=
  (dat1 V c).arrAt_eq_of_cover 3 (dense1 (V c main_v43) (V c main_arg7) (V c main_v44)) (fun t _ => flushed1 V c t) cover1

end Cert.Sage.Region

end
-- ==== Proof.ReferenceLayers.lean ====
/-
  The reference's two dense layers, read at an index.

  After each neighbourhood average the reference applies a dense layer on the host: a row of the averaged
  features times a column of the weight matrix, summed over the 512 shared coordinates, plus the column's
  bias — and, after the first layer only, the maximum with zero.  The statements below read the reference's
  stages that hold those two results at a row `p` and a column `q`; the averaged features themselves
  (the stages feeding the products) stay closed.
-/
import proofs.«168798_j39814346834501_1_alg».proof.Proof.Gen.ReferenceIdeal.Read

noncomputable section

namespace Cert.Sage.Ref

open Cert.ReferenceIdeal Cert.ReferenceIdeal.Read Idealize.ShloMosaic Idealize.ShloMosaic.ValueIdx

/-- First layer: entry `(p, q)` of the rectified result is `max (Σₖ a₀(p,k)·W₁(k,q) + b₁(q)) 0`, with `a₀` the
    first neighbourhood average. -/
theorem layer0_apply (x0 : (⟨S100000x512, .f32⟩ : BufTy).Contents (Elt Ideal)) (x1 x2 : (⟨S400000, .i32⟩ : BufTy).Contents (Elt Ideal))
    (x5 : (⟨S512x512, .f32⟩ : BufTy).Contents (Elt Ideal)) (x6 : (⟨S512, .f32⟩ : BufTy).Contents (Elt Ideal))
    (p : Fin 25000) (q : Fin 512) :
    val_main_v25 (F := Ideal) x0 x1 x2 x5 x6 (ix2 p q)
      = max ((∑ k : Fin 512, val_main_v20 (F := Ideal) x0 x1 x2 (ix2 p k) * x5 (ix2 k q)) + x6 (ix1 q)) 0 := by
  rw [val_main_v25_apply, val_main_v24_apply, val_main_v21_apply, val_main_v23_apply, val_main_v22_apply,
    val_main_call0_v0_apply, val_main_call0_cst_apply]
  have el : ∀ k : Fin 512, lidx_main_v21 (ix2 p q) k = ix2 p k := fun k => funext fun a => Fin.ext (by
    match a with | ⟨0, _⟩ => rfl | ⟨1, _⟩ => rfl)
  have er : ∀ k : Fin 512, ridx_main_v21 (ix2 p q) k = ix2 k q := fun k => funext fun a => Fin.ext (by
    match a with | ⟨0, _⟩ => rfl | ⟨1, _⟩ => rfl)
  have eb : idx_main_v22 (idx_main_v23 (ix2 p q)) = ix1 q := funext fun a => Fin.ext (by
    match a with | ⟨0, _⟩ => rfl)
  simp only [el, er, eb, Ideal.addf_def, Ideal.maximumf_def, Ideal.ofBits_def, Ideal.ofBits_zero_f32]

/-- Second layer: entry `(p, q)` of the result is `Σₖ a₁(p,k)·W₂(k,q) + b₂(q)`, with `a₁` the second neighbourhood
    average. -/
theorem layer1_apply (x0 : (⟨S100000x512, .f32⟩ : BufTy).Contents (Elt Ideal)) (x1 x2 : (⟨S400000, .i32⟩ : BufTy).Contents (Elt Ideal))
    (x3 x4 : (⟨S80000, .i32⟩ : BufTy).Contents (Elt Ideal))
    (x5 : (⟨S512x512, .f32⟩ : BufTy).Contents (Elt Ideal)) (x6 : (⟨S512, .f32⟩ : BufTy).Contents (Elt Ideal))
    (x7 : (⟨S512x256, .f32⟩ : BufTy).Contents (Elt Ideal)) (x8 : (⟨S256, .f32⟩ : BufTy).Contents (Elt Ideal))
    (p : Fin 5000) (q : Fin 256) :
    val_main_v50 (F := Ideal) x0 x1 x2 x3 x4 x5 x6 x7 x8 (ix2 p q)
      = (∑ k : Fin 512, val_main_v46 (F := Ideal) x0 x1 x2 x3 x4 x5 x6 (ix2 p k) * x7 (ix2 k q)) + x8 (ix1 q) := by
  rw [val_main_v50_apply, val_main_v47_apply, val_main_v49_apply, val_main_v48_apply]
  have el : ∀ k : Fin 512, lidx_main_v47 (ix2 p q) k = ix2 p k := fun k => funext fun a => Fin.ext (by
    match a with | ⟨0, _⟩ => rfl | ⟨1, _⟩ => rfl)
  have er : ∀ k : Fin 512, ridx_main_v47 (ix2 p q) k = ix2 k q := fun k => funext fun a => Fin.ext (by
    match a with | ⟨0, _⟩ => rfl | ⟨1, _⟩ => rfl)
  have eb : idx_main_v48 (idx_main_v49 (ix2 p q)) = ix1 q := funext fun a => Fin.ext (by
    match a with | ⟨0, _⟩ => rfl)
  simp only [el, er, eb, Ideal.addf_def]

end Cert.Sage.Ref

end
-- ==== Proof.LayerBridge.lean ====
/-
  The kernel's dense layers and the reference's are the same functions.

  Fed the same averaged features, weights and bias, the region's whole-array layer (bias read from a one-row
  array, the bias vector reshaped) and the reference's host layer (bias vector broadcast over the rows) have the
  same entry at every row and column: the same 512 products summed, plus the same bias entry, under the same
  maximum with zero in the first layer.  No sum is reordered and nothing is cancelled, so the equality holds on
  all extended reals, infinities included.
-/
import proofs.«168798_j39814346834501_1_alg».proof.Proof.RegionValues
import proofs.«168798_j39814346834501_1_alg».proof.Proof.ReferenceLayers
import Idealize.ShloMosaic.Lib.ValueLayout

noncomputable section

namespace Cert.Sage.Bridge

open Cert.KernelIdeal Cert.KernelIdeal.Facts₀ Idealize.ShloMosaic Idealize.ShloMosaic.ValueIdx
open Cert.ReferenceIdeal.Read (val_main_v20 val_main_v25 val_main_v46 val_main_v50)

/-- First layer: the region's layer of the first average is the reference's rectified stage. -/
theorem dense0_eq_ref (x0 : Vec Ideal S100000x512 .f32) (x1 x2 : IVec S400000 32)
    (x5 : Vec Ideal S512x512 .f32) (x6 : Vec Ideal S512 .f32) :
    Region.dense0 (val_main_v20 (F := Ideal) x0 x1 x2) x5 (shapeCast S1x512 x6 shapeCasts_S512_S1x512)
      = val_main_v25 (F := Ideal) x0 x1 x2 x5 x6 := by
  funext i
  obtain ⟨p, q, rfl⟩ : ∃ (p : Fin 25000) (q : Fin 512), i = ix2 p q := ⟨i 0, i 1, eq_ix2 i⟩
  refine Eq.trans ?_ (Ref.layer0_apply x0 x1 x2 x5 x6 p q).symm
  unfold Region.dense0
  have hb : shapeCast S1x512 x6 shapeCasts_S512_S1x512 (ix2 (0 : Fin 1) q) = x6 (ix1 q) :=
    shapeCast_a_1a_apply x6 shapeCasts_S512_S1x512 0 q
  exact congrArg (fun b => max ((∑ k : Fin 512, val_main_v20 (F := Ideal) x0 x1 x2 (ix2 p k) * x5 (ix2 k q)) + b) 0) hb

/-- Second layer: the region's layer of the second average is the reference's result. -/
theorem dense1_eq_ref (x0 : Vec Ideal S100000x512 .f32) (x1 x2 : IVec S400000 32) (x3 x4 : IVec S80000 32)
    (x5 : Vec Ideal S512x512 .f32) (x6 : Vec Ideal S512 .f32) (x7 : Vec Ideal S512x256 .f32) (x8 : Vec Ideal S256 .f32) :
    Region.dense1 (val_main_v46 (F := Ideal) x0 x1 x2 x3 x4 x5 x6) x7 (shapeCast S1x256 x8 shapeCasts_S256_S1x256)
      = val_main_v50 (F := Ideal) x0 x1 x2 x3 x4 x5 x6 x7 x8 := by
  funext i
  obtain ⟨p, q, rfl⟩ : ∃ (p : Fin 5000) (q : Fin 256), i = ix2 p q := ⟨i 0, i 1, eq_ix2 i⟩
  refine Eq.trans ?_ (Ref.layer1_apply x0 x1 x2 x3 x4 x5 x6 x7 x8 p q).symm
  unfold Region.dense1
  have hb : shapeCast S1x256 x8 shapeCasts_S256_S1x256 (ix2 (0 : Fin 1) q) = x8 (ix1 q) :=
    shapeCast_a_1a_apply x8 shapeCasts_S256_S1x256 0 q
  exact congrArg (fun b => (∑ k : Fin 512, val_main_v46 (F := Ideal) x0 x1 x2 x3 x4 x5 x6 (ix2 p k) * x7 (ix2 k q)) + b) hb

end Cert.Sage.Bridge

end
-- ==== Proof.HostStages.lean ====
/-
  The kernel program's buffers at its segment boundaries, named by the reference's stages.

  Between launch and return the kernel program alternates host stretches and regions.  The host stretches are,
  operation for operation, the reference's own neighbourhood averages: gather the source rows, sum them into their
  destination rows, add the destination's own row, divide by the in-degree plus one.  So

    * the first region is entered with the reference's first average, the first weights and the first bias
      reshaped to one row;
    * it leaves the reference's rectified first layer (the region's dense layer is the reference's);
    * the second stretch turns that, by the same operations the reference applies to the same value, into the
      reference's second average; the second region is entered with it, the second weights and bias;
    * and it leaves the reference's result.

  The averages are never opened: both programs apply one and the same chain of host operations to equal values.
-/
import proofs.«168798_j39814346834501_1_alg».proof.Proof.Gen.KernelIdeal.Frame
import proofs.«168798_j39814346834501_1_alg».proof.Proof.Gen.ReferenceIdeal.Read
import proofs.«168798_j39814346834501_1_alg».proof.Proof.LayerBridge

set_option maxRecDepth 16384

noncomputable section

namespace Cert.Sage.Host

open Cert.KernelIdeal Cert.KernelIdeal.Gen Idealize.ShloMosaic Idealize.ShloMosaic.TcCoe Idealize.SL.Sem
open Idealize.ShloMosaic.StableHlo
open Cert.ReferenceIdeal.Read (val_main_v20 val_main_v25 val_main_v46 val_main_v50)

variable (m : (ℓ : Loc nD τ sig) → Buf (Elt Ideal) ℓ) (ρ : Dev nD → PrngReg)

/-! ## Entering the first region -/

set_option maxHeartbeats 1000000 in
/-- The first region's input rows are the reference's first neighbourhood average of the launch arguments. -/
theorem avg0 (c : Dev nD) : V1 m ρ c main_v20
    = val_main_v20 (F := Ideal) (m ((c : Thread nD τ).loc main_arg0)) (m ((c : Thread nD τ).loc main_arg1)) (m ((c : Thread nD τ).loc main_arg2)) := by
  show StableHlo.after hostOps0 (W0 m ρ c) (Proc.devRef .tc main_v20) = _
  after_results
  rfl

set_option maxHeartbeats 1000000 in
/-- Its bias row is the first bias vector reshaped to one row. -/
theorem bias0 (c : Dev nD) : V1 m ρ c main_v21 = shapeCast S1x512 (m ((c : Thread nD τ).loc main_arg6)) shapeCasts_S512_S1x512 := by
  show StableHlo.after hostOps0 (W0 m ρ c) (Proc.devRef .tc main_v21) = _
  after_results
  rfl

set_option maxHeartbeats 1000000 in
/-- Its weights are the first weight matrix as launched. -/
theorem weights0 (c : Dev nD) : V1 m ρ c main_arg5 = m ((c : Thread nD τ).loc main_arg5) := by
  show StableHlo.after hostOps0 (W0 m ρ c) (Proc.devRef .tc main_arg5) = _
  after_results

/-! ## Leaving the first region -/

/-- After the first region its output array is the reference's rectified first layer. -/
theorem hidden (c : Dev nD) : W2 m ρ c (Proc.devRef .tc main_v22)
    = val_main_v25 (F := Ideal) (m ((c : Thread nD τ).loc main_arg0)) (m ((c : Thread nD τ).loc main_arg1)) (m ((c : Thread nD τ).loc main_arg2))
        (m ((c : Thread nD τ).loc main_arg5)) (m ((c : Thread nD τ).loc main_arg6)) := by
  refine (W2_arr m ρ c 3).trans ?_
  rw [Region.final0 (V1 m ρ) c, avg0, weights0, bias0]
  exact Bridge.dense0_eq_ref _ _ _ _ _

set_option maxHeartbeats 1000000 in
/-- The first region leaves the second layer's edge sources, edge destinations, weights and bias as launched. -/
theorem kept3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
set_option maxHeartbeats 1000000 in
theorem kept4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
set_option maxHeartbeats 1000000 in
theorem kept7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)
set_option maxHeartbeats 1000000 in
theorem kept8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)

/-! ## Entering the second region -/

set_option maxHeartbeats 1000000 in
/-- The second region's input rows are the reference's second neighbourhood average. -/
theorem avg1 (c : Dev nD) : V3 m ρ c main_v43
    = val_main_v46 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) := by
  show StableHlo.after hostOps1 (W2 m ρ c) (Proc.devRef .tc main_v43) = _
  after_results
  rw [hidden, kept3, kept4]
  rfl

set_option maxHeartbeats 1000000 in
/-- Its bias row is the second bias vector reshaped to one row. -/
theorem bias1 (c : Dev nD) : V3 m ρ c main_v44 = shapeCast S1x256 (m ((c : Thread nD τ).loc main_arg8)) shapeCasts_S256_S1x256 := by
  show StableHlo.after hostOps1 (W2 m ρ c) (Proc.devRef .tc main_v44) = _
  after_results
  rw [kept8]
  rfl

set_option maxHeartbeats 1000000 in
/-- Its weights are the second weight matrix as launched: no host operation writes it. -/
theorem weights1 (c : Dev nD) : V3 m ρ c main_arg7 = m ((c : Thread nD τ).loc main_arg7) := by
  show StableHlo.after hostOps1 (W2 m ρ c) (Proc.devRef .tc main_arg7) = _
  after_results
  exact kept7 m ρ c

/-! ## The result -/

/-- After the second region the result buffer holds the reference's result of the launch arguments. -/
theorem result (c : Dev nD) : W4 m ρ c (Proc.devRef .tc main_v45)
    = val_main_v50 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6))
        (m ((c : Thread nD τ).loc main_arg7)) (m ((c : Thread nD τ).loc main_arg8)) := by
  refine (W4_arr m ρ c 3).trans ?_
  rw [Region.final1 (V3 m ρ) c, avg1, weights1, bias1]
  exact Bridge.dense1_eq_ref _ _ _ _ _ _ _ _ _

end Cert.Sage.Host

end
-- ==== Proof.lean ====
/-
  Two layers of a graph network with mean aggregation: the kernel program against its plain reference.

  Each layer first averages, for every destination node, the feature rows of its in-neighbours together with its
  own row (gather the source rows along the edges, sum them into the destination rows, add the destination's row,
  divide by in-degree + 1), and then applies a dense layer:  `h ↦ h·W + b`, followed after the first layer by the
  maximum with zero.  The kernel program keeps the averaging on the host, operation for operation as the
  reference does, and computes each dense layer in a pipelined region, 1000 rows per grid step, the product on
  the matrix unit from a zero accumulator with both factors first narrowed to a shorter float format.

  On exact values the narrowing is the identity and the unit's product into zero is the plain sum of the 512
  products, so every output row of a region is that row of `h·W + b` (rectified in the first layer), which is what
  the reference's product, bias broadcast and maximum give.  Equal first layers go through one and the same
  averaging chain, so the second layers are fed equal values and the results agree entry by entry — on all
  extended reals: no sum is reordered across an operation, nothing is cancelled or distributed, and the
  finiteness of the inputs is not needed.

  The three frames are the generated ones (the reference's is its generated run with the result dropped); the
  idealisation rewrote no operation, so there is nothing to preserve.
-/
import proofs.«168798_j39814346834501_1_alg».proof.Defs
import proofs.«168798_j39814346834501_1_alg».proof.Proof.Gen.Kernel
import proofs.«168798_j39814346834501_1_alg».proof.Proof.Gen.Kernel.Skeleton
import proofs.«168798_j39814346834501_1_alg».proof.Proof.Gen.Kernel.Launch
import proofs.«168798_j39814346834501_1_alg».proof.Proof.Gen.Kernel.Points
import proofs.«168798_j39814346834501_1_alg».proof.Proof.Gen.Kernel.Frame
import proofs.«168798_j39814346834501_1_alg».proof.Proof.Gen.KernelIdeal
import proofs.«168798_j39814346834501_1_alg».proof.Proof.Gen.KernelIdeal.Skeleton
import proofs.«168798_j39814346834501_1_alg».proof.Proof.Gen.KernelIdeal.Launch
import proofs.«168798_j39814346834501_1_alg».proof.Proof.Gen.KernelIdeal.Points
import proofs.«168798_j39814346834501_1_alg».proof.Proof.Gen.KernelIdeal.Frame
import proofs.«168798_j39814346834501_1_alg».proof.Proof.Gen.ReferenceIdeal
import proofs.«168798_j39814346834501_1_alg».proof.Proof.Gen.ReferenceIdeal.Run
import proofs.«168798_j39814346834501_1_alg».proof.Proof.Gen.ReferenceIdeal.Read
import proofs.«168798_j39814346834501_1_alg».proof.Proof.Gen.Pre_finite_inputs
import proofs.«168798_j39814346834501_1_alg».proof.Proof.KernelRun
import proofs.«168798_j39814346834501_1_alg».proof.Proof.HostStages
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read on exact values. -/
theorem frame_kernel_ideal : Cert.frame_KernelIdeal := fun m ρ _ => Cert.KernelIdeal.Gen.frame m ρ

/-- And the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories that agree on the nine arguments both programs end with the same result: the reference's last
    stage of the arguments.  The kernel program's result buffer holds it after the second region; the reference's
    run ends at the same stage of its own arguments, which are the kernel's. -/
theorem algebraic : Cert.algebraic_KernelIdeal_ReferenceIdeal := by
  intro m ρ m' ρ' _ hagree
  refine ⟨fun c => Cert.ReferenceIdeal.Read.val_main_v50 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.Sage.Host.result m ρ c), (h c).2⟩)
      (Cert.Sage.Run.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v50_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
